-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x3x256 : Shape := ⟨3, ![32, 3, 256]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel
  bcast_S_S32x3x256 : S_.BroadcastsInDim S32x3x256 (![] : Fin 0 → Fin S32x3x256.rank)
  reducesTo_S32x3x256_S_d0_1_2 : S32x3x256.ReducesTo [0, 1, 2] S_

variable [Facts]

def fn_part1 {F : FTy → Type} [FloatOps F] (main_v3 : IVec S32x3x512x512 32) (main_v16 : IVec S_ 1) : IVec S_ 1 :=
  let main_c_5 : IVec S_ 32 := constantI S_ 32 255#32
  let main_v17 : IVec S32x3x512x512 32 := broadcastInDim S32x3x512x512 ![] bcast_S_S32x3x512x512 main_c_5
  let main_v18 : IVec S32x3x512x512 1 := cmpi .sle main_v3 main_v17
  let main_c_6 : IVec S_ 1 := constantI S_ 1 1#1
  let main_v19 : IVec S_ 1 := (fun x v => Host.reduce IntOp.andi x v reducesTo_S32x3x512x512_S_d0_1_2_3 h_S_) main_v18 main_c_6
  let main_v20 : IVec S_ 1 := andi main_v16 main_v19
  main_v20

def fn {F : FTy → Type} [FloatOps F] (main_arg0 : FVec F S32x3x512x512 .f32) (main_arg1 : FVec F S32x3x256 .f32) : IVec S_ 1 :=
  let main_cst : FVec F S_ .f32 := constant S_ .f32 0x437F0000#32
  let main_v0 : FVec F S32x3x512x512 .f32 := broadcastInDim S32x3x512x512 ![] bcast_S_S32x3x512x512 main_cst
  let main_v1 : FVec F S32x3x512x512 .f32 := mulf main_v0 main_arg0
  let main_v2 : FVec F S32x3x512x512 .f32 := Host.roundeven main_v1
  let main_v3 : IVec S32x3x512x512 32 := fptosi 32 main_v2
  let main_v4 : FVec F S32x3x512x512 .f32 := Host.absf main_arg0
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c : IVec S_ 1 := constantI S_ 1 1#1
  let main_v7 : IVec S_ 1 := (fun x v => Host.reduce IntOp.andi x v reducesTo_S32x3x512x512_S_d0_1_2_3 h_S_) main_v6 main_c
  let main_v8 : FVec F S32x3x256 .f32 := Host.absf main_arg1
  let main_cst_1 : FVec F S_ .f32 := constant S_ .f32 0x7F800000#32
  let main_v9 : FVec F S32x3x256 .f32 := broadcastInDim S32x3x256 ![] bcast_S_S32x3x256 main_cst_1
  let main_v10 : IVec S32x3x256 1 := cmpf .olt main_v8 main_v9
  let main_c_2 : IVec S_ 1 := constantI S_ 1 1#1
  let main_v11 : IVec S_ 1 := (fun x v => Host.reduce IntOp.andi x v reducesTo_S32x3x256_S_d0_1_2 h_S_) main_v10 main_c_2
  let main_v12 : IVec S_ 1 := andi main_v7 main_v11
  let main_c_3 : IVec S_ 32 := constantI S_ 32 0#32
  let main_v13 : IVec S32x3x512x512 32 := broadcastInDim S32x3x512x512 ![] bcast_S_S32x3x512x512 main_c_3
  let main_v14 : IVec S32x3x512x512 1 := cmpi .sge main_v3 main_v13
  let main_c_4 : IVec S_ 1 := constantI S_ 1 1#1
  let main_v15 : IVec S_ 1 := (fun x v => Host.reduce IntOp.andi x v reducesTo_S32x3x512x512_S_d0_1_2_3 h_S_) main_v14 main_c_4
  let main_v16 : IVec S_ 1 := andi main_v12 main_v15
  fn_part1 (F := F) main_v3 main_v16
-- ==== Kernel.lean ====
abbrev S32x3x512x512 : Shape := ⟨4, ![32, 3, 512, 512]⟩
abbrev S32x3x256 : Shape := ⟨3, ![32, 3, 256]⟩
abbrev S96x512x512 : Shape := ⟨3, ![96, 512, 512]⟩
abbrev S96x1x256 : Shape := ⟨3, ![96, 1, 256]⟩
abbrev S1x512x512 : Shape := ⟨3, ![1, 512, 512]⟩
abbrev S1x1x256 : Shape := ⟨3, ![1, 1, 256]⟩
abbrev S1x256 : Shape := ⟨2, ![1, 256]⟩
abbrev S1x16x512 : Shape := ⟨3, ![1, 16, 512]⟩
abbrev S16x512 : Shape := ⟨2, ![16, 512]⟩
abbrev S16x512x1 : Shape := ⟨3, ![16, 512, 1]⟩
abbrev S16x512x256 : Shape := ⟨3, ![16, 512, 256]⟩

abbrev nBuf : Space → Nat
  | .hbm => 6
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x256, .f32⟩
  | .hbm, ⟨2, _⟩ => ⟨S96x512x512, .f32⟩
  | .hbm, ⟨3, _⟩ => ⟨S96x1x256, .f32⟩
  | .hbm, ⟨4, _⟩ => ⟨S96x512x512, .f32⟩
  | .hbm, ⟨5, _⟩ => ⟨S32x3x512x512, .f32⟩
  | .local _ .vmem, ⟨0, _⟩ => ⟨S1x512x512, .f32⟩
  | .local _ .vmem, ⟨1, _⟩ => ⟨S1x512x512, .f32⟩
  | .local _ .vmem, ⟨2, _⟩ => ⟨S1x1x256, .f32⟩
  | .local _ .vmem, ⟨3, _⟩ => ⟨S1x1x256, .f32⟩
  | .local _ .vmem, ⟨4, _⟩ => ⟨S1x512x512, .f32⟩
  | .local _ .vmem, ⟨5, _⟩ => ⟨S1x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v5 : BitVec 32 := Scalar.muli arg4 c16_i32
  v5
def k0_off1 (k0_t1 : Fin k0_t1_loop.trips) : Fin 3 → Nat :=
  let c0_3 : Index := 0#32
  let c0_i32 : BitVec 32 := 0#32
  let c1_i32 : BitVec 32 := 1#32
  let arg4 : BitVec 32 := Scf.iv c0_i32 c1_i32 k0_t1
  let c16_i32 : BitVec 32 := 16#32
  let v5 : BitVec 32 := Scalar.muli arg4 c16_i32
  let v6 : BitVec 32 := v5
  let v7 : Index := Scalar.indexCast v6
  let c0_4 : Index := 0#32
  ![0, v7.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x3x512x512_S96x512x512 : S32x3x512x512.ShapeCasts S96x512x512
  shapeCasts_S32x3x256_S96x1x256 : S32x3x256.ShapeCasts S96x1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  iota_S1x1x256_d2_w32 : S1x1x256.Iotas .tc 32 [2]
  h_S1x16x512 : 0 < S1x16x512.numel
  shapeCasts_S1x16x512_S16x512 : S1x16x512.ShapeCasts S16x512
  shapeCasts_S16x512_S16x512x1 : S16x512.ShapeCasts S16x512x1
  broadcasts_S16x512x1_S16x512x256 : S16x512x1.Broadcasts S16x512x256
  broadcasts_S1x1x256_S16x512x256 : S1x1x256.Broadcasts S16x512x256
  natLt_1_32 : 1 < 32
  reduces_S16x512x256_S16x512 : S16x512x256.Reduces [2] S16x512
  shapeCasts_S16x512_S1x16x512 : S16x512.ShapeCasts S1x16x512
  shapeCasts_S96x512x512_S32x3x512x512 : S96x512x512.ShapeCasts S32x3x512x512
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x512.size a ≤ S1x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S96x512x512.size a
  hwx0_0 : ∀ i : grid0.Coords, EltTy.bits .f32 = 32 ∨ (Rect.block (s := S96x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S96x1x256.size a
  hwx0_1 : ∀ i : grid0.Coords, EltTy.bits .f32 = 32 ∨ (Rect.block (s := S96x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S96x512x512.size a
  hwx0_2 : ∀ i : grid0.Coords, EltTy.bits .f32 = 32 ∨ (Rect.block (s := S96x512x512) S1x512x512.size (cc0_transform_2 i) (hinb0_2 i)).WholeWords (EltTy.packing .f32)

variable [Facts₀]

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x3x256 : Shape := ⟨3, ![32, 3, 256]⟩
abbrev S_ : Shape := ⟨0, ![]⟩
abbrev S32x3x262144 : Shape := ⟨3, ![32, 3, 262144]⟩
abbrev S32x3x262144x1 : Shape := ⟨4, ![32, 3, 262144, 1]⟩
abbrev S1 : Shape := ⟨1, ![1]⟩
abbrev S1x1x1x1 : Shape := ⟨4, ![1, 1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x256, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S32x3x512x512, .f32⟩
  | .hbm, ⟨6, _⟩ => ⟨S32x3x512x512, .i32⟩
  | .hbm, ⟨7, _⟩ => ⟨S32x3x262144, .i32⟩
  | .hbm, ⟨8, _⟩ => ⟨S_, .i32⟩
  | .hbm, ⟨9, _⟩ => ⟨S32x3x262144, .i32⟩
  | .hbm, ⟨10, _⟩ => ⟨S32x3x262144, .i1⟩
  | .hbm, ⟨11, _⟩ => ⟨S_, .i32⟩
  | .hbm, ⟨12, _⟩ => ⟨S32x3x262144, .i32⟩
  | .hbm, ⟨13, _⟩ => ⟨S32x3x262144, .i32⟩
  | .hbm, ⟨14, _⟩ => ⟨S32x3x262144, .i32⟩
  | .hbm, ⟨15, _⟩ => ⟨S32x3x262144x1, .i32⟩
  | .hbm, ⟨16, _⟩ => ⟨S1, .i32⟩
  | .hbm, ⟨17, _⟩ => ⟨S_, .i32⟩
  | .hbm, ⟨18, _⟩ => ⟨S32x3x262144x1, .i32⟩
  | .hbm, ⟨19, _⟩ => ⟨S32x3x262144x1, .i1⟩
  | .hbm, ⟨20, _⟩ => ⟨S1x1x1x1, .i32⟩
  | .hbm, ⟨21, _⟩ => ⟨S32x3x262144x1, .i32⟩
  | .hbm, ⟨22, _⟩ => ⟨S32x3x262144x1, .i1⟩
  | .hbm, ⟨23, _⟩ => ⟨S32x3x262144x1, .i1⟩
  | .hbm, ⟨24, _⟩ => ⟨S_, .i1⟩
  | .hbm, ⟨25, _⟩ => ⟨S32x3x262144, .i1⟩
  | .hbm, ⟨26, _⟩ => ⟨S32x3x262144, .f32⟩
  | .hbm, ⟨27, _⟩ => ⟨S_, .f32⟩
  | .hbm, ⟨28, _⟩ => ⟨S32x3x262144, .f32⟩
  | .hbm, ⟨29, _⟩ => ⟨S32x3x262144, .f32⟩
  | .hbm, ⟨30, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v5 : Ref sig .tc := ⟨.hbm, 29, rfl⟩
abbrev main_v6 : Ref sig .tc := ⟨.hbm, 30, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  shapeCasts_S32x3x512x512_S32x3x262144 : S32x3x512x512.ShapeCasts S32x3x262144
  bcast_S_S32x3x262144 : S_.BroadcastsInDim S32x3x262144 (![] : Fin 0 → Fin S32x3x262144.rank)
  shapeCasts_S32x3x262144_S32x3x262144x1 : S32x3x262144.ShapeCasts S32x3x262144x1
  bcast_S_S32x3x262144x1 : S_.BroadcastsInDim S32x3x262144x1 (![] : Fin 0 → Fin S32x3x262144x1.rank)
  bcast_S1_S1x1x1x1_3 : S1.BroadcastsInDim S1x1x1x1 (![3] : Fin 1 → Fin S1x1x1x1.rank)
  bcast_S1x1x1x1_S32x3x262144x1_0_1_2_3 : S1x1x1x1.BroadcastsInDim S32x3x262144x1 (![0, 1, 2, 3] : Fin 4 → Fin S32x3x262144x1.rank)
  reducesTo_S32x3x262144x1_S32x3x262144_d3 : S32x3x262144x1.ReducesTo [3] S32x3x262144
  h_S_ : 0 < S_.numel
  shapeCasts_S32x3x262144_S32x3x512x512 : S32x3x262144.ShapeCasts S32x3x512x512
  gather_S32x3x256_S32x3x262144x1_S32x3x262144_n_2_01_01_2_3_111_wf : GatherDims.WF S32x3x256 S32x3x262144x1 S32x3x262144 [] [2] [0, 1] [2] [0, 1] 3 ![1, 1, 1]

variable [Facts₀]

def gather_S32x3x256_S32x3x262144x1_S32x3x262144_n_2_01_01_2_3_111 : GatherDims S32x3x256 S32x3x262144x1 S32x3x262144 where
  offsetDims := []
  collapsedSliceDims := [2]
  operandBatchingDims := [0, 1]
  startIndicesBatchingDims := [0, 1]
  startIndexMap := [2]
  indexVectorDim := 3
  sliceSizes := ![1, 1, 1]
  wf := gather_S32x3x256_S32x3x262144x1_S32x3x262144_n_2_01_01_2_3_111_wf

class Facts : Prop extends Facts₀ where

variable [Facts]
-- ==== Proof.Lookup.lean ====
/-
  The lookup both programs compute, stated once, away from either program.

  An image entry `x` selects a table position: `255·x` rounded to the nearest integer (ties to even) and converted
  to a signed 32-bit word, `word x`. The kernel holds that word inside `[0, 255]` (`clamp`) and then forms, over the
  256 table entries, the sum of (entry × indicator that the entry's position is the selected one). Exactly one
  indicator is 1 and the others are 0, and on the extended reals `0 · t = 0` for every `t` (also for `t = ±∞`), so the
  sum is the selected entry (`onehot_sum`): no finiteness of the table is needed.
-/
import Idealize.ShloMosaic.PureOps.Ideal
import Idealize.ShloMosaic.Lib.ValueIdx

noncomputable section

namespace Cert.Lookup

open Idealize.ShloMosaic

/-- The table position an image entry selects, as a signed 32-bit word: `255·x`, rounded half to even, truncated. -/
def word (x : Ideal .f32) : BitVec 32 :=
  FloatOps.fptosi 32 (FloatOps.roundeven (FloatOps.mulf (FloatOps.ofBits .f32 0x437F0000#32) x))

/-- A word held inside the table: first raised to at least 0, then lowered to at most 255 (signed comparisons). -/
def clamp (w : BitVec 32) : BitVec 32 := IntOp.minsi 255#32 (IntOp.maxsi 0#32 w)

/-- A clamped word, read unsigned, is a table position. -/
theorem clamp_lt (w : BitVec 32) : (clamp w).toNat < 256 := by
  unfold clamp IntOp.minsi IntOp.maxsi
  have h255 : (255#32 : BitVec 32).toInt = 255 := by decide
  have h0 : (0#32 : BitVec 32).toInt = 0 := by decide
  have hw := BitVec.toInt_eq_toNat_cond w
  have hwlt := w.isLt
  by_cases h1 : (w.slt 0#32) = true
  · rw [if_pos h1]
    by_cases h2 : ((255#32 : BitVec 32).slt 0#32) = true
    · exact absurd h2 (by decide)
    · rw [if_neg h2]; decide
  · rw [if_neg h1]
    by_cases h2 : ((255#32 : BitVec 32).slt w) = true
    · rw [if_pos h2]; decide
    · rw [if_neg h2]
      simp only [BitVec.slt, decide_eq_true_eq, h255, h0] at h1 h2
      split at hw <;> omega

/-- A word already inside the table (signed `0 ≤ w ≤ 255`) is left as it is. -/
theorem clamp_eq_self (w : BitVec 32) (hlo : (0#32 : BitVec 32).sle w = true) (hhi : w.sle 255#32 = true) : clamp w = w := by
  unfold clamp IntOp.minsi IntOp.maxsi
  have h255 : (255#32 : BitVec 32).toInt = 255 := by decide
  have h0 : (0#32 : BitVec 32).toInt = 0 := by decide
  simp only [BitVec.sle, decide_eq_true_eq, h255, h0] at hlo hhi
  have h1 : ¬ (w.slt 0#32) = true := by
    simp only [BitVec.slt, decide_eq_true_eq, h0]; omega
  rw [if_neg h1]
  have h2 : ¬ ((255#32 : BitVec 32).slt w) = true := by
    simp only [BitVec.slt, decide_eq_true_eq, h255]; omega
  rw [if_neg h2]

/-- The table position a clamped word names. -/
def pos (w : BitVec 32) : Fin 256 := ⟨(clamp w).toNat, clamp_lt w⟩

/-- The indicator the kernel multiplies entry `k` by: 1 when `k` is the selected position, else 0. -/
def indicator (w : BitVec 32) (k : Fin 256) : Ideal .f32 :=
  FloatOps.sitofp .f32 ((IntOp.cmpi .eq w (BitVec.ofNat 32 k.val)).setWidth 32)

theorem indicator_self (w : BitVec 32) (h : w.toNat < 256) : indicator w ⟨w.toNat, h⟩ = 1 := by
  unfold indicator IntOp.cmpi
  have e : (w == BitVec.ofNat 32 w.toNat) = true := by
    rw [beq_iff_eq]; simp
  simp only [e]
  show (((BitVec.setWidth 32 (BitVec.ofBool true)).toInt : ℝ) : EReal) = 1
  have : (BitVec.setWidth 32 (BitVec.ofBool true)).toInt = 1 := by decide
  rw [this]; simp

theorem indicator_ne (w : BitVec 32) (k : Fin 256) (h : w.toNat ≠ k.val) : indicator w k = 0 := by
  unfold indicator IntOp.cmpi
  have e : (w == BitVec.ofNat 32 k.val) = false := by
    rw [beq_eq_false_iff_ne]
    intro hw
    apply h
    rw [hw, BitVec.toNat_ofNat]
    have := k.isLt
    omega
  simp only [e]
  show (((BitVec.setWidth 32 (BitVec.ofBool false)).toInt : ℝ) : EReal) = 0
  have : (BitVec.setWidth 32 (BitVec.ofBool false)).toInt = 0 := by decide
  rw [this]; simp

/-- THE LAW that joins the two programs: the indicator-weighted sum over the table is the selected entry. -/
theorem onehot_sum (w : BitVec 32) (h : w.toNat < 256) (tbl : Fin 256 → Ideal .f32) :
    ∑ k : Fin 256, indicator w k * tbl k = tbl ⟨w.toNat, h⟩ := by
  rw [Finset.sum_eq_single (⟨w.toNat, h⟩ : Fin 256)]
  · rw [indicator_self w h]; exact one_mul _
  · intro k _ hk
    rw [indicator_ne w k (fun e => hk (Fin.ext e.symm))]
    exact zero_mul _
  · intro hn; exact absurd (Finset.mem_univ _) hn

end Cert.Lookup

end
-- ==== Proof.Payload.lean ====
/-
  What one trip of the kernel's row loop stores, read at an element.

  A trip loads a slab of 16 image rows (`v8`, shape [1,16,512]) and holds the table block (`v0`, shape [1,1,256]). For
  the element in row `r`, lane `l` of the slab it computes the selected table position `w = clamp (word (v8[0,r,l]))`,
  spreads it along a new last axis of length 256, compares it there with the lane number `k`, turns the comparison into
  the number 1 or 0, multiplies by the table entry `v0[0,0,k]` and sums over `k`. Read at `(r, l)` the stored value is
  therefore `∑ k, indicator w k * v0[0,0,k]`, which is the one selected entry `v0[0,0,pos]` (`Lookup.onehot_sum`).
-/
import proofs.«160090_j1554778161489_2_alg».proof.Proof.Gen.KernelIdeal.Skeleton
import proofs.«160090_j1554778161489_2_alg».proof.Proof.Lookup
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Lookup

/-- The slab [1,16,512] read as a matrix [16,512]: element `(r, l)` is element `(0, r, l)`. -/
theorem slab_apply {α : Type} (v : S1x16x512.Idx → α) (h : S1x16x512.ShapeCasts S16x512) (r : Fin 16) (l : Fin 512) :
    shapeCast S16x512 v h (ix2 r l) = v (ix3 (0 : Fin 1) r l) :=
  shapeCast_apply v h (ix2 r l) (ix3 (0 : Fin 1) r l) (by
    rw [Shape.rowMajor_val_two, Shape.rowMajor_val_three]
    show ((0 : Fin 1).val * 16 + r.val) * 512 + l.val = r.val * 512 + l.val
    simp)

/-- A matrix [16,512] read as a slab [1,16,512]: element `(0, r, l)` is element `(r, l)`. -/
theorem unslab_apply {α : Type} (v : S16x512.Idx → α) (h : S16x512.ShapeCasts S1x16x512) (r : Fin 16) (l : Fin 512) :
    shapeCast S1x16x512 v h (ix3 (0 : Fin 1) r l) = v (ix2 r l) :=
  shapeCast_apply v h (ix3 (0 : Fin 1) r l) (ix2 r l) (by
    rw [Shape.rowMajor_val_two, Shape.rowMajor_val_three]
    show r.val * 512 + l.val = ((0 : Fin 1).val * 16 + r.val) * 512 + l.val
    simp)

/-- A matrix [16,512] given a trailing unit axis and spread along 256 lanes: lane `k` of `(r, l)` is element `(r, l)`. -/
theorem spread_apply {α : Type} (u : S16x512.Idx → α) (h1 : S16x512.ShapeCasts S16x512x1) (h2 : S16x512x1.Broadcasts S16x512x256)
    (r : Fin 16) (l : Fin 512) (k : Fin 256) :
    broadcastTo S16x512x256 (shapeCast S16x512x1 u h1) h2 (ix3 r l k) = u (ix2 r l) := by
  refine (broadcastTo_apply _ h2 (ix3 r l k) (ix3 r l (0 : Fin 1)) ?_).trans ?_
  · intro a
    match a with
    | ⟨0, _⟩ => rfl
    | ⟨1, _⟩ => rfl
    | ⟨2, _⟩ => rfl
  · exact shapeCast_apply u h1 (ix3 r l (0 : Fin 1)) (ix2 r l) (by
      rw [Shape.rowMajor_val_two, Shape.rowMajor_val_three]
      show r.val * 512 + l.val = (r.val * 512 + l.val) * 1 + (0 : Fin 1).val
      simp)

/-- A row [1,1,256] spread over the slab's elements: lane `k` of `(r, l)` is entry `k` of the row. -/
theorem row_apply {α : Type} (tb : S1x1x256.Idx → α) (h : S1x1x256.Broadcasts S16x512x256) (r : Fin 16) (l : Fin 512) (k : Fin 256) :
    broadcastTo S16x512x256 tb h (ix3 r l k) = tb (ix3 (0 : Fin 1) (0 : Fin 1) k) := by
  refine broadcastTo_apply tb h (ix3 r l k) (ix3 (0 : Fin 1) (0 : Fin 1) k) ?_
  intro a
  match a with
  | ⟨0, _⟩ => rfl
  | ⟨1, _⟩ => rfl
  | ⟨2, _⟩ => rfl

/-- The lane numbers along the row: entry `k` is the word `k`. -/
theorem lane_apply (h : S1x1x256.Iotas .tc 32 [2]) (k : Fin 256) :
    iota .tc S1x1x256 32 [2] h (ix3 (0 : Fin 1) (0 : Fin 1) k) = BitVec.ofNat 32 k.val := by
  show BitVec.ofNat 32 (0 * 256 + k.val) = BitVec.ofNat 32 k.val
  simp

/-- The sum's index at `(r, l)`, lane `k`. -/
theorem lift_eq (h : S16x512x256.Reduces [2] S16x512) (r : Fin 16) (l : Fin 512) (k : Fin 256) :
    h.lift (ix2 r l) k = ix3 r l k := by
  funext a
  match a with
  | ⟨0, _⟩ => rfl
  | ⟨1, _⟩ => rfl
  | ⟨2, _⟩ => rfl

/-- The elementwise operations of the body, read at an element. -/
theorem minsi_at {s : Shape} (x y : IVec s 32) (i : s.Idx) : minsi x y i = IntOp.minsi (x i) (y i) := rfl
theorem maxsi_at {s : Shape} (x y : IVec s 32) (i : s.Idx) : maxsi x y i = IntOp.maxsi (x i) (y i) := rfl
theorem fptosi_at {s : Shape} (x : FVec Ideal s .f32) (i : s.Idx) : fptosi 32 x i = FloatOps.fptosi 32 (x i) := rfl
theorem roundeven_at {s : Shape} (x : FVec Ideal s .f32) (i : s.Idx) : roundeven x i = FloatOps.roundeven (x i) := rfl
theorem mulf_at {s : Shape} (x y : FVec Ideal s .f32) (i : s.Idx) : mulf x y i = FloatOps.mulf (x i) (y i) := rfl

/-- THE STORED VALUE at row `r`, lane `l` of the slab: the table entry the element selects. -/
theorem pay_apply (v0 : Vec Ideal S1x1x256 .f32) (v8 : Vec Ideal S1x16x512 .f32) (r : Fin 16) (l : Fin 512) :
    k0_pay1 (F := Ideal) v0 v8 (ix3 (0 : Fin 1) r l)
      = v0 (ix3 (0 : Fin 1) (0 : Fin 1) (pos (word (v8 (ix3 (0 : Fin 1) r l))))) := by
  unfold k0_pay1
  dsimp only
  refine (unslab_apply _ shapeCasts_S16x512_S1x16x512 r l).trans ?_
  refine (Ideal.multiReduction_add_single _ _ reduces_S16x512x256_S16x512 _ _ (ix2 r l)).trans ?_
  refine (Finset.sum_congr rfl (fun k _ => ?_)).trans
    (onehot_sum (clamp (word (v8 (ix3 (0 : Fin 1) r l)))) (clamp_lt _) (fun k => v0 (ix3 (0 : Fin 1) (0 : Fin 1) k)))
  obtain ⟨k', rfl⟩ : ∃ k' : Fin 256, k' = k := ⟨k, rfl⟩
  rw [lift_eq reduces_S16x512x256_S16x512 r l k']
  rw [mulf_apply, sitofp_apply, extui_apply]
  rw [row_apply _ broadcasts_S1x1x256_S16x512x256 r l k', shapeCast_shapeCast]
  refine congrArg (fun t => t * v0 (ix3 (0 : Fin 1) (0 : Fin 1) k')) ?_
  unfold indicator
  refine congrArg (fun b : BitVec 1 => FloatOps.sitofp (F := Ideal) .f32 (b.setWidth 32)) ?_
  show IntOp.cmpi .eq (broadcastTo S16x512x256 _ _ (ix3 r l k')) (broadcastTo S16x512x256 _ _ (ix3 r l k')) = _
  rw [spread_apply _ shapeCasts_S16x512_S16x512x1 broadcasts_S16x512x1_S16x512x256 r l k',
    row_apply _ broadcasts_S1x1x256_S16x512x256 r l k', lane_apply]
  refine congrArg (fun w => IntOp.cmpi .eq w (BitVec.ofNat 32 k'.val)) ?_
  rw [minsi_at, maxsi_at, fptosi_at, roundeven_at, mulf_at, broadcast_apply, broadcast_apply, broadcast_apply,
    slab_apply v8 shapeCasts_S1x16x512_S16x512 r l]
  unfold clamp word
  rfl

end Cert.KernelIdeal.Payload

end
-- ==== Proof.Block.lean ====
/-
  What one grid point leaves in its output block.

  The body walks the 512 rows of its block in 32 trips of 16 rows; trip `k` loads rows `16k … 16k+15` of the image
  block, computes the selected table entries of those rows (`Payload.pay_apply`) and stores them over the same rows of
  the output block. The 32 stored pieces tile the block, and every piece agrees, element by element, with ONE function
  of the two input blocks: `blockOut x0 x1 y = x1[0, 0, pos (word (x0 y))]`. So the block ends holding `blockOut`.
-/
import proofs.«160090_j1554778161489_2_alg».proof.Proof.Gen.KernelIdeal.Frame
import proofs.«160090_j1554778161489_2_alg».proof.Proof.Payload
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx Idealize.ShloMosaic.TcCoe
open Idealize.SL.Sem Cert.Lookup Cert.KernelIdeal.Payload

/-- The output block as one function of the image block `x0` and the table block `x1`. -/
def blockOut (x0 : Vec Ideal S1x512x512 .f32) (x1 : Vec Ideal S1x1x256 .f32) : Vec Ideal S1x512x512 .f32 :=
  fun y => x1 (ix3 (0 : Fin 1) (0 : Fin 1) (pos (word (x0 y))))

theorem hz3 : (![0, 0, 0] : Fin 3 → Nat) = fun _ => 0 := funext fun a => by fin_cases a <;> rfl

/-- One trip's stored piece: the rows it covers, and the value it stores there. -/
theorem trip_piece (𝒱 : Variants) (c : Dev nD) (bd : Option 𝒱.V) (i : grid0.Coords)
    (a1 : Memref sig .tc .vmem S1x512x512 .f32) (h1 : a1.IsWhole) (a2 : Memref sig .tc .vmem S1x1x256 .f32) (h2 : a2.IsWhole)
    (a3 : Memref sig .tc .vmem S1x512x512 .f32) (h3 : a3.IsWhole) (v0 : Vec Ideal S1x1x256 .f32)
    (X : BufTy.Contents (Elt Ideal) a1.view.ty) (k : Fin k0_t1_loop.trips) :
    tripL_k0_t1 (F := Ideal) 𝒱 c bd i a1 h1 a2 h2 a3 h3 v0 X k
      = [⟨Rect.unit (s := S1x512x512) (k0_off1 k) S1x16x512.size (k0_off1_inb k),
          k0_pay1 v0 (View.readAt (Elt Ideal) a1.view (Rect.unit (s := S1x512x512) (k0_off1 k) S1x16x512.size (k0_off1_inb k)).toLoadRect X)⟩] := by
  unfold tripL_k0_t1 trip_k0_t1
  rfl

/-- One trip's stored value agrees with `blockOut` at every element of the rows it covers. -/
theorem piece_agrees (a1 : Memref sig .tc .vmem S1x512x512 .f32) (h1 : a1.IsWhole)
    (x0 : Vec Ideal S1x512x512 .f32) (x1 : Vec Ideal S1x1x256 .f32) (k : Fin k0_t1_loop.trips) (x : S1x16x512.Idx) :
    k0_pay1 x1 (View.readAt (Elt Ideal) a1.view (Rect.unit (s := S1x512x512) (k0_off1 k) S1x16x512.size (k0_off1_inb k)).toLoadRect (h1.unread x0)) x
      = blockOut x0 x1 ((Rect.unit (s := S1x512x512) (k0_off1 k) S1x16x512.size (k0_off1_inb k)).emb x) := by
  have hlt : (x 0).val < 1 := (x 0).isLt
  have h0 : x 0 = (0 : Fin 1) := Fin.ext (by show (x 0).val = 0; omega)
  obtain ⟨r, l, rfl⟩ : ∃ (r : Fin 16) (l : Fin 512), x = ix3 (0 : Fin 1) r l :=
    ⟨x 1, x 2, funext fun a => match a with | ⟨0, _⟩ => h0 | ⟨1, _⟩ => rfl | ⟨2, _⟩ => rfl⟩
  refine (pay_apply x1 _ r l).trans ?_
  unfold blockOut
  rw [View.readAt_eq_ld, h1.read_unread]
  rfl

/-- Every piece the trips before `n` stored agrees with `blockOut` at the elements it covers. -/
theorem pieces_agree (c : Dev nD) (i : grid0.Coords)
    (a1 : Memref sig .tc .vmem S1x512x512 .f32) (h1 : a1.IsWhole) (a2 : Memref sig .tc .vmem S1x1x256 .f32) (h2 : a2.IsWhole)
    (a3 : Memref sig .tc .vmem S1x512x512 .f32) (h3 : a3.IsWhole) (x0 : Vec Ideal S1x512x512 .f32) (x1 : Vec Ideal S1x1x256 .f32) :
    ∀ n : ℕ, ∀ p ∈ pb_k0_t1 (F := Ideal) Variants.none c none i a1 h1 a2 h2 a3 h3 x1 (h1.unread x0) n,
      ∀ x : p.1.shape.Idx, p.2 x = blockOut x0 x1 (p.1.emb x)
  | 0 => fun p hp => absurd hp List.not_mem_nil
  | n + 1 => fun p hp => by
    rw [pb_k0_t1.eq_2] at hp
    unfold pb_k0_t1Step at hp
    split at hp
    · rename_i hn
      rcases List.mem_append.mp hp with hp | hp
      · rw [trip_piece] at hp
        obtain rfl := List.mem_singleton.mp hp
        exact fun x => piece_agrees a1 h1 x0 x1 ⟨n, hn⟩ x
      · exact pieces_agree c i a1 h1 a2 h2 a3 h3 x0 x1 n p hp
    · exact pieces_agree c i a1 h1 a2 h2 a3 h3 x0 x1 n p hp

/-- THE BLOCK: whatever the staging buffer held, the body leaves `blockOut` of its two input blocks in it. -/
theorem out_eq (c : Dev nD) (i : grid0.Coords)
    (a1 : Memref sig .tc .vmem S1x512x512 .f32) (h1 : a1.IsWhole) (a2 : Memref sig .tc .vmem S1x1x256 .f32) (h2 : a2.IsWhole)
    (a3 : Memref sig .tc .vmem S1x512x512 .f32) (h3 : a3.IsWhole) (x0 : Vec Ideal S1x512x512 .f32) (x1 : Vec Ideal S1x1x256 .f32) :
    out0_A_2 (F := Ideal) c i a1 h1 a2 h2 a3 h3 x0 x1 = blockOut x0 x1 := by
  funext y
  unfold out0_A_2
  refine View.read_writes_apply_of_pieces VO0_2 _ (blockOut x0 x1) _ ?_ y (cover0_A_2 c i a1 h1 a2 h2 a3 h3 x0 x1 y)
  have hL : (kernelRun0_A (F := Ideal) c i a1 h1 a2 h2 a3 h3 x0 x1).1
      = pb_k0_t1 (F := Ideal) Variants.none c none i a1 h1 a2 h2 a3 h3 x1 (h1.unread x0) 32 := by
    unfold kernelRun0_A
    dsimp only
    rw [View.readAt_eq_ld, h2.read_unread, View.ld_unit_zero (S := S1x1x256) hz3]
    rfl
  rw [hL]
  exact pieces_agree c i a1 h1 a2 h2 a3 h3 x0 x1 32

end Cert.KernelIdeal.Block

end
-- ==== Proof.KernelArray.lean ====
/-
  From blocks to arrays: what the kernel's result array holds after the run.

  @main first restacks its arguments: the images [32,3,512,512] as 96 planes [96,512,512], the tables [32,3,256] as 96
  rows [96,1,256] (same elements in row-major order). The grid has 96 points; point `t` reads plane `t` and row `t`
  and writes plane `t` of the stacked result. By `Block.out_eq` plane `t` ends holding, at `(h, w)`, the entry of row `t`
  that the image element `(t, h, w)` selects. The 96 planes cover the stacked result, so that array is ONE function of
  the two stacked inputs (`arrOut`); @main's last line unstacks it to [32,3,512,512].
-/
import proofs.«160090_j1554778161489_2_alg».proof.Proof.Block
import Idealize.ShloMosaic.Lib.Pipeline.Value
import Idealize.ShloMosaic.Lib.StableHlo.Run

set_option maxRecDepth 16384

noncomputable section

namespace Cert.KernelIdeal.Stacked

open Cert.KernelIdeal Cert.KernelIdeal.Gen Idealize.ShloMosaic Idealize.ShloMosaic.ValueIdx Idealize.ShloMosaic.TcCoe
open Idealize.SL.Sem Cert.Lookup Cert.KernelIdeal.Block
open Idealize.ShloMosaic.Pipeline (Dat)

variable (m : (ℓ : Loc nD τ sig) → Buf (Elt Ideal) ℓ) (ρ : Dev nD → PrngReg)

/-- The stacked result as one function of the stacked images `img` and the stacked tables `tbl`: element `(p, h, w)` is
    the entry of row `p` that image element `(p, h, w)` selects. -/
def arrOut (img : S96x512x512.Idx → Ideal .f32) (tbl : S96x1x256.Idx → Ideal .f32) : S96x512x512.Idx → Ideal .f32 :=
  fun j => tbl (ix3 (⟨(j 0).val, (j 0).isLt⟩ : Fin 96) (0 : Fin 1) (pos (word (img j))))

/-- The index maps over the grid: every window sits at plane `t`, offset 0 on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is plane `t` of `arrOut` of the stacked inputs as the region finds them. -/
theorem flushed_eq (c : Dev nD) (t : Fin cfg0.N) :
    (dats m 0 c).flushed 2 t = ((cfg0.win 2).blk t).view.read (Elt Ideal) (arrOut (V m c main_v0) (V m c main_v1)) := by
  show (cfg0.win 2).cut (grid0.coords t) ((dats m 0 c).after 2 t) = _
  rw [after0_2]
  unfold outsAt0
  rw [out_eq]
  obtain ⟨a0, a1, a2, b0, b1, b2, c0, c1, c2⟩ := idx_facts t
  funext y
  have hy0 : (y 0).val < 1 := (y 0).isLt
  have h0 : ((cfg0.win 0).blk t).view.emb y = ((cfg0.win 2).blk t).view.emb y := by
    funext a; apply Fin.ext
    match a with
    | ⟨0, _⟩ => show win0_0.index t (0 : Fin 3) * 1 + 1 * (y 0).val = win0_2.index t (0 : Fin 3) * 1 + 1 * (y 0).val; omega
    | ⟨1, _⟩ => show win0_0.index t (1 : Fin 3) * 512 + 1 * (y 1).val = win0_2.index t (1 : Fin 3) * 512 + 1 * (y 1).val; omega
    | ⟨2, _⟩ => show win0_0.index t (2 : Fin 3) * 512 + 1 * (y 2).val = win0_2.index t (2 : Fin 3) * 512 + 1 * (y 2).val; omega
  have h1 : ∀ k : Fin 256, ((cfg0.win 1).blk t).view.emb (ix3 (0 : Fin 1) (0 : Fin 1) k)
      = ix3 (⟨((((cfg0.win 2).blk t).view.emb y) 0).val, ((((cfg0.win 2).blk t).view.emb y) 0).isLt⟩ : Fin 96) (0 : Fin 1) k := by
    intro k
    funext a; apply Fin.ext
    match a with
    | ⟨0, _⟩ => show win0_1.index t (0 : Fin 3) * 1 + 1 * (0 : Fin 1).val = win0_2.index t (0 : Fin 3) * 1 + 1 * (y 0).val; simp; omega
    | ⟨1, _⟩ => show win0_1.index t (1 : Fin 3) * 1 + 1 * (0 : Fin 1).val = (0 : Fin 1).val; simp; omega
    | ⟨2, _⟩ => show win0_1.index t (2 : Fin 3) * 256 + 1 * k.val = k.val; omega
  show V m c main_v1 (((cfg0.win 1).blk t).view.emb (ix3 (0 : Fin 1) (0 : Fin 1) (pos (word (V m c main_v0 (((cfg0.win 0).blk t).view.emb y))))))
    = V m c main_v1 (ix3 (⟨((((cfg0.win 2).blk t).view.emb y) 0).val, ((((cfg0.win 2).blk t).view.emb y) 0).isLt⟩ : Fin 96) (0 : Fin 1)
        (pos (word (V m c main_v0 (((cfg0.win 2).blk t).view.emb y)))))
  rw [h0, h1]

/-- An index of the stacked result is in point `t`'s block iff each coordinate is in the block's range on its axis. -/
theorem mem_blk (t : Fin cfg0.N) (i : S96x512x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v2).slice (win0_2.rect t)).set ↔ _
  rw [View.set_slice_whole, Rect.mem_set_unit]
  exact Iff.rfl

/-- Every element of the stacked result lies in the block of the point numbered by its plane. -/
theorem cover (i : S96x512x512.Idx) : ∃ t : Fin cfg0.N, (cfg0.win 2).flush t = true ∧ i ∈ ((cfg0.win 2).blk t).view.set := by
  have hN : cfg0.N = 96 := N_0
  have hi0 : (i 0).val < 96 := (i 0).isLt
  have hi1 : (i 1).val < 512 := (i 1).isLt
  have hi2 : (i 2).val < 512 := (i 2).isLt
  refine ⟨⟨(i 0).val, by rw [hN]; exact hi0⟩, flush0_2 _, ?_⟩
  rw [mem_blk]
  obtain ⟨a0, a1, a2, b0, b1, b2, c0, c1, c2⟩ := idx_facts ⟨(i 0).val, by rw [hN]; exact hi0⟩
  intro a
  match a with
  | ⟨0, _⟩ => show win0_2.index _ (0 : Fin 3) * 1 ≤ (i 0).val ∧ (i 0).val < win0_2.index _ (0 : Fin 3) * 1 + 1; rw [c0]; dsimp only; omega
  | ⟨1, _⟩ => show win0_2.index _ (1 : Fin 3) * 512 ≤ (i 1).val ∧ (i 1).val < win0_2.index _ (1 : Fin 3) * 512 + 512; rw [c1]; omega
  | ⟨2, _⟩ => show win0_2.index _ (2 : Fin 3) * 512 ≤ (i 2).val ∧ (i 2).val < win0_2.index _ (2 : Fin 3) * 512 + 512; rw [c2]; omega

/-- THE STACKED RESULT after the run. -/
theorem final (c : Dev nD) : (dats m 0 c).arrAt 2 cfg0.N = arrOut (V m c main_v0) (V m c main_v1) :=
  (dats m 0 c).arrAt_eq_of_cover 2 (arrOut (V m c main_v0) (V m c main_v1)) (fun t _ => flushed_eq m c t) cover

/-- The stacked images as the region finds them: the image argument restacked. -/
theorem V_img (c : Dev nD) : (V m c main_v0 : S96x512x512.Idx → Ideal .f32)
    = shapeCast S96x512x512 (m ((c.tc : Thread nD τ).loc main_arg0)) shapeCasts_S32x3x512x512_S96x512x512 := by
  show StableHlo.after hostOps0 (fun b => m (c, b)) (Proc.devRef .tc main_v0) = _
  after_results
  rfl

/-- The stacked tables as the region finds them: the table argument restacked. -/
theorem V_tbl (c : Dev nD) : (V m c main_v1 : S96x1x256.Idx → Ideal .f32)
    = shapeCast S96x1x256 (m ((c.tc : Thread nD τ).loc main_arg1)) shapeCasts_S32x3x256_S96x1x256 := by
  show StableHlo.after hostOps0 (fun b => m (c, b)) (Proc.devRef .tc main_v1) = _
  after_results
  rfl

/-- @main's result: the stacked result unstacked. -/
theorem result_eq (c : Dev nD) :
    (Pipeline.afterTail₀ cfgs (dats m) 0 (V0 m) [hostOps1] c main_v3 : S32x3x512x512.Idx → Ideal .f32)
      = shapeCast S32x3x512x512 (arrOut (V m c main_v0) (V m c main_v1)) shapeCasts_S96x512x512_S32x3x512x512 := by
  unfold Pipeline.afterTail₀
  show StableHlo.after hostOps1 _ (Proc.devRef .tc main_v3) = _
  after_results
  rw [(Pipeline.withArrays_arr spec0 launch0.win.arr_inj c _ _ 2).trans (final m c)]
  rfl

end Cert.KernelIdeal.Stacked

end
-- ==== Proof.KernelValue.lean ====
/-
  The kernel's run, read: @main's result as one function of its two arguments, element by element.

  Unstacking undoes the stacking: plane `3b + c` of the stacked arrays is channel `c` of batch `b`, so element
  `(b, c, h, w)` of the result is the entry of table `(b, c)` that image element `(b, c, h, w)` selects.
-/
import proofs.«160090_j1554778161489_2_alg».proof.Proof.KernelArray

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL.Sem Cert.Lookup Cert.KernelIdeal.Stacked

/-- @main's result as a function of the image argument `x0` and the table argument `x1`. -/
def kernOut (x0 : FVec Ideal S32x3x512x512 .f32) (x1 : FVec Ideal S32x3x256 .f32) : FVec Ideal S32x3x512x512 .f32 :=
  shapeCast S32x3x512x512
    (arrOut (shapeCast S96x512x512 x0 shapeCasts_S32x3x512x512_S96x512x512) (shapeCast S96x1x256 x1 shapeCasts_S32x3x256_S96x1x256))
    shapeCasts_S96x512x512_S32x3x512x512

/-- The plane of batch `b`, channel `ch`. -/
abbrev plane (b : Fin 32) (ch : Fin 3) : Fin 96 := ⟨b.val * 3 + ch.val, by have := b.isLt; have := ch.isLt; omega⟩

/-- Element by element: the entry of table `(b, ch)` that image element `(b, ch, h, w)` selects. -/
theorem kernOut_apply (x0 : FVec Ideal S32x3x512x512 .f32) (x1 : FVec Ideal S32x3x256 .f32)
    (b : Fin 32) (ch : Fin 3) (h w : Fin 512) :
    kernOut x0 x1 (ix4 b ch h w) = x1 (ix3 b ch (pos (word (x0 (ix4 b ch h w))))) := by
  unfold kernOut
  refine (shapeCast_apply _ shapeCasts_S96x512x512_S32x3x512x512 (ix4 b ch h w) (ix3 (plane b ch) h w) (by
    rw [Shape.rowMajor_val_three, Shape.rowMajor_val_four]
    show ((b.val * 3 + ch.val) * 512 + h.val) * 512 + w.val = ((b.val * 3 + ch.val) * 512 + h.val) * 512 + w.val
    rfl)).trans ?_
  unfold arrOut
  have himg : shapeCast S96x512x512 x0 shapeCasts_S32x3x512x512_S96x512x512 (ix3 (plane b ch) h w) = x0 (ix4 b ch h w) :=
    shapeCast_apply x0 shapeCasts_S32x3x512x512_S96x512x512 (ix3 (plane b ch) h w) (ix4 b ch h w) (by
      rw [Shape.rowMajor_val_three, Shape.rowMajor_val_four]
      show ((b.val * 3 + ch.val) * 512 + h.val) * 512 + w.val = ((b.val * 3 + ch.val) * 512 + h.val) * 512 + w.val
      rfl)
  have htbl : ∀ k : Fin 256, shapeCast S96x1x256 x1 shapeCasts_S32x3x256_S96x1x256 (ix3 (plane b ch) (0 : Fin 1) k) = x1 (ix3 b ch k) := fun k =>
    shapeCast_apply x1 shapeCasts_S32x3x256_S96x1x256 (ix3 (plane b ch) (0 : Fin 1) k) (ix3 b ch k) (by
      rw [Shape.rowMajor_val_three, Shape.rowMajor_val_three]
      show (b.val * 3 + ch.val) * 256 + k.val = ((b.val * 3 + ch.val) * 1 + (0 : Fin 1).val) * 256 + k.val
      simp)
  show shapeCast S96x1x256 x1 shapeCasts_S32x3x256_S96x1x256 (ix3 (plane b ch) (0 : Fin 1)
      (pos (word (shapeCast S96x512x512 x0 shapeCasts_S32x3x512x512_S96x512x512 (ix3 (plane b ch) h w))))) = _
  rw [himg, htbl]

variable (m : (ℓ : Loc nD τ sig) → Buf (Elt Ideal) ℓ) (ρ : Dev nD → PrngReg)

/-- THE KERNEL'S RUN: every weakly fair execution terminates with the result at `kernOut` of the arguments, the
    arguments unchanged. -/
theorem run : θ_run defs (onTc (τ := τ) (main (F := Ideal))) ⟨m, fun _ => 0, ρ⟩ fun r => ∀ c : Dev nD,
      r.2.mem ((c.tc : Thread nD τ).loc main_v3)
        = kernOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans
        ((result_eq m c).trans (by rw [V_img, V_tbl]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefStages.lean ====
/-
  The reference program's result as a function of its two arguments, built from the stages of the program:
  the index array (image entry × 255, rounded half to even, converted to a signed word, each 512 × 512 plane one row
  of 262144), the lookup along the last axis of the table (a gather under a mask of the indices that lie inside the
  table) and the layout of the rows back as planes. The mask's reduction over its unit axis is a parameter `g` of the
  stages: what the program's run leaves in the result buffer has this form whichever reduction stands there, so it is
  stated and proved for every `g`, and then read at the program's own reduction, `allAxis3`.
-/
import proofs.«160090_j1554778161489_2_alg».proof.Proof.Gen.ReferenceIdeal
import Idealize.ShloMosaic.PureOps.Ideal

noncomputable section

namespace Cert.ReferenceIdeal.RefValue

open Cert.ReferenceIdeal Cert.ReferenceIdeal.Gen Idealize.ShloMosaic

variable {F : FTy → Type} [FloatOps F]

/-- The flattened index array: every image entry times 255, rounded half to even, converted to a signed word; each
    512 × 512 plane laid out as one row of 262144. -/
def idxFlat (x0 : (⟨S32x3x512x512, .f32⟩ : BufTy).Contents (Elt F)) : (⟨S32x3x262144, .i32⟩ : BufTy).Contents (Elt F) :=
  shapeCast _ (fptosi 32 (Host.roundeven (mulf (broadcastInDim S32x3x512x512 ![] bcast_S_S32x3x512x512 (constant S_ .f32 0x437F0000#32)) x0))) shapeCasts_S32x3x512x512_S32x3x262144

/-- The lookup's start indices: a negative index has 256 added (an index counted from the end), and a unit axis is
    appended. -/
def wrapIdx (idx : (⟨S32x3x262144, .i32⟩ : BufTy).Contents (Elt F)) : (⟨S32x3x262144x1, .i32⟩ : BufTy).Contents (Elt F) :=
  shapeCast _ (select (cmpi .slt idx (broadcastInDim S32x3x262144 ![] bcast_S_S32x3x262144 (constantI S_ 32 0#32))) (addi idx (broadcastInDim S32x3x262144 ![] bcast_S_S32x3x262144 (constantI S_ 32 256#32))) idx) shapeCasts_S32x3x262144_S32x3x262144x1

/-- The reduction the program applies to the mask: "and" over the unit axis, from the given initial value. -/
def allAxis3 (x : (⟨S32x3x262144x1, .i1⟩ : BufTy).Contents (Elt F)) (v : (⟨S_, .i1⟩ : BufTy).Contents (Elt F)) :
    (⟨S32x3x262144, .i1⟩ : BufTy).Contents (Elt F) :=
  Host.reduce IntOp.andi x v reducesTo_S32x3x262144x1_S32x3x262144_d3 h_S_

/-- The lookup's mask, with reduction `g`: the reduction, from 1, of "the start index is at least 0 and at most 255". -/
def inBoundsG (g : (⟨S32x3x262144x1, .i1⟩ : BufTy).Contents (Elt F) → (⟨S_, .i1⟩ : BufTy).Contents (Elt F) → (⟨S32x3x262144, .i1⟩ : BufTy).Contents (Elt F))
    (si : (⟨S32x3x262144x1, .i32⟩ : BufTy).Contents (Elt F)) : (⟨S32x3x262144, .i1⟩ : BufTy).Contents (Elt F) :=
  g (andi (cmpi .sge si (broadcastInDim S32x3x262144x1 ![] bcast_S_S32x3x262144x1 (constantI S_ 32 0#32))) (cmpi .sle si (broadcastInDim S32x3x262144x1 ![0, 1, 2, 3] bcast_S1x1x1x1_S32x3x262144x1_0_1_2_3 (broadcastInDim S1x1x1x1 ![3] bcast_S1_S1x1x1x1_3 (constantI S1 32 255#32))))) (constantI S_ 1 1#1)

/-- The lookup along the last axis, with reduction `g`: where the mask is 1 the table entry the start index names
    (the gather), elsewhere the fill constant. -/
def takeAlongG (g : (⟨S32x3x262144x1, .i1⟩ : BufTy).Contents (Elt F) → (⟨S_, .i1⟩ : BufTy).Contents (Elt F) → (⟨S32x3x262144, .i1⟩ : BufTy).Contents (Elt F))
    (x1 : (⟨S32x3x256, .f32⟩ : BufTy).Contents (Elt F)) (idx : (⟨S32x3x262144, .i32⟩ : BufTy).Contents (Elt F)) : (⟨S32x3x262144, .f32⟩ : BufTy).Contents (Elt F) :=
  select (inBoundsG (F := F) g (wrapIdx (F := F) idx)) (Host.gather gather_S32x3x256_S32x3x262144x1_S32x3x262144_n_2_01_01_2_3_111 x1 (wrapIdx (F := F) idx)) (broadcastInDim S32x3x262144 ![] bcast_S_S32x3x262144 (constant S_ .f32 0x7FC00000#32))

/-- The result, with reduction `g`: the lookup at the flattened index array, laid back out as 512 × 512 planes. -/
def refOutG (g : (⟨S32x3x262144x1, .i1⟩ : BufTy).Contents (Elt F) → (⟨S_, .i1⟩ : BufTy).Contents (Elt F) → (⟨S32x3x262144, .i1⟩ : BufTy).Contents (Elt F))
    (x0 : (⟨S32x3x512x512, .f32⟩ : BufTy).Contents (Elt F)) (x1 : (⟨S32x3x256, .f32⟩ : BufTy).Contents (Elt F)) : (⟨S32x3x512x512, .f32⟩ : BufTy).Contents (Elt F) :=
  shapeCast S32x3x512x512 (takeAlongG (F := F) g x1 (idxFlat (F := F) x0)) shapeCasts_S32x3x262144_S32x3x512x512

/-- THE REFERENCE'S RESULT at the ideal values, as a function of the image and the table. -/
def refOut (x0 : FVec Ideal S32x3x512x512 .f32) (x1 : FVec Ideal S32x3x256 .f32) : FVec Ideal S32x3x512x512 .f32 :=
  refOutG (F := Ideal) (allAxis3 (F := Ideal)) x0 x1

end Cert.ReferenceIdeal.RefValue

end
-- ==== Proof.RefRun.lean ====
/-
  The reference program's run. The program is a straight line of 29 host operations (the two called functions'
  operations standing in their calls' places); every weakly fair execution terminates, and each buffer then holds
  the fold of the operations' results over the launch contents. That fold at the result buffer is computed in three
  pieces — the index array, the lookup, the final layout — and the lookup's piece for an arbitrary reduction of its
  mask (the fold does not look inside it), read at the program's own reduction at the end. The result is `refOut` of
  the two arguments' launch contents, and the arguments are unchanged.
-/
import proofs.«160090_j1554778161489_2_alg».proof.Proof.RefStages
import Idealize.ShloMosaic.Lib.StableHlo.Run

noncomputable section

namespace Cert.ReferenceIdeal.RefValue

open Cert.ReferenceIdeal Cert.ReferenceIdeal.Gen Idealize.ShloMosaic

variable {F : FTy → Type} [FloatOps F]

open Idealize.ShloMosaic.TcCoe Idealize.SL.Sem Idealize.ShloMosaic.StableHlo

/-- The program's 29 operations, in order (a called function's operations stand in its call's place, over the call's
    own buffers). -/
abbrev ops : List (HloOp τ sig (Elt F)) :=
  [ nullary main_cst (constant S_ .f32 0x437F0000#32),
    unary main_cst main_v0 (broadcastInDim S32x3x512x512 ![] bcast_S_S32x3x512x512 : (⟨S_, .f32⟩ : BufTy).Contents (Elt F) → (⟨S32x3x512x512, .f32⟩ : BufTy).Contents (Elt F)),
    binary main_v0 main_arg0 main_v1 (mulf : (⟨S32x3x512x512, .f32⟩ : BufTy).Contents (Elt F) → (⟨S32x3x512x512, .f32⟩ : BufTy).Contents (Elt F) → (⟨S32x3x512x512, .f32⟩ : BufTy).Contents (Elt F)),
    TRef.unary (TRef.of (T := ⟨S32x3x512x512, .f32⟩) main_v1) (TRef.of (T := ⟨S32x3x512x512, .f32⟩) main_v2) Host.roundeven,
    unary main_v2 main_v3 (fptosi 32 : (⟨S32x3x512x512, .f32⟩ : BufTy).Contents (Elt F) → (⟨S32x3x512x512, .i32⟩ : BufTy).Contents (Elt F)),
    reshape main_v3 main_v4 rfl shapeCasts_S32x3x512x512_S32x3x262144,
    TRef.nullary (TRef.of (T := ⟨S_, .i32⟩) main_call1_c) (constantI S_ 32 0#32),
    TRef.unary (TRef.of (T := ⟨S_, .i32⟩) main_call1_c) (TRef.of (T := ⟨S32x3x262144, .i32⟩) main_call1_v0) (broadcastInDim S32x3x262144 ![] bcast_S_S32x3x262144),
    TRef.binary (TRef.of (T := ⟨S32x3x262144, .i32⟩) main_v4) (TRef.of (T := ⟨S32x3x262144, .i32⟩) main_call1_v0) (TRef.of (T := ⟨S32x3x262144, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S32x3x262144, .i32⟩) main_call1_v2) (broadcastInDim S32x3x262144 ![] bcast_S_S32x3x262144),
    TRef.binary (TRef.of (T := ⟨S32x3x262144, .i32⟩) main_v4) (TRef.of (T := ⟨S32x3x262144, .i32⟩) main_call1_v2) (TRef.of (T := ⟨S32x3x262144, .i32⟩) main_call1_v3) addi,
    TRef.ternary (TRef.of (T := ⟨S32x3x262144, .i1⟩) main_call1_v1) (TRef.of (T := ⟨S32x3x262144, .i32⟩) main_call1_v3) (TRef.of (T := ⟨S32x3x262144, .i32⟩) main_v4) (TRef.of (T := ⟨S32x3x262144, .i32⟩) main_call1_v4) select,
    TRef.reshape (TRef.of (T := ⟨S32x3x262144, .i32⟩) main_call1_v4) (TRef.of (T := ⟨S32x3x262144x1, .i32⟩) main_call1_v5) rfl shapeCasts_S32x3x262144_S32x3x262144x1,
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S32x3x262144x1, .i32⟩) main_call1_v6) (broadcastInDim S32x3x262144x1 ![] bcast_S_S32x3x262144x1),
    TRef.binary (TRef.of (T := ⟨S32x3x262144x1, .i32⟩) main_call1_v5) (TRef.of (T := ⟨S32x3x262144x1, .i32⟩) main_call1_v6) (TRef.of (T := ⟨S32x3x262144x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S32x3x262144x1, .i32⟩) main_call1_v9) (broadcastInDim S32x3x262144x1 ![0, 1, 2, 3] bcast_S1x1x1x1_S32x3x262144x1_0_1_2_3),
    TRef.binary (TRef.of (T := ⟨S32x3x262144x1, .i32⟩) main_call1_v5) (TRef.of (T := ⟨S32x3x262144x1, .i32⟩) main_call1_v9) (TRef.of (T := ⟨S32x3x262144x1, .i1⟩) main_call1_v10) (cmpi .sle),
    TRef.binary (TRef.of (T := ⟨S32x3x262144x1, .i1⟩) main_call1_v7) (TRef.of (T := ⟨S32x3x262144x1, .i1⟩) main_call1_v10) (TRef.of (T := ⟨S32x3x262144x1, .i1⟩) main_call1_v11) andi,
    TRef.nullary (TRef.of (T := ⟨S_, .i1⟩) main_call1_c_3) (constantI S_ 1 1#1),
    TRef.binary (TRef.of (T := ⟨S32x3x262144x1, .i1⟩) main_call1_v11) (TRef.of (T := ⟨S_, .i1⟩) main_call1_c_3) (TRef.of (T := ⟨S32x3x262144, .i1⟩) main_call1_v12) (fun x v => Host.reduce IntOp.andi x v reducesTo_S32x3x262144x1_S32x3x262144_d3 h_S_),
    TRef.binary (TRef.of (T := ⟨S32x3x256, .f32⟩) main_arg1) (TRef.of (T := ⟨S32x3x262144x1, .i32⟩) main_call1_v5) (TRef.of (T := ⟨S32x3x262144, .f32⟩) main_call1_v13) (fun x i => Host.gather gather_S32x3x256_S32x3x262144x1_S32x3x262144_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S32x3x262144, .f32⟩) main_call1_v14) (broadcastInDim S32x3x262144 ![] bcast_S_S32x3x262144),
    TRef.ternary (TRef.of (T := ⟨S32x3x262144, .i1⟩) main_call1_v12) (TRef.of (T := ⟨S32x3x262144, .f32⟩) main_call1_v13) (TRef.of (T := ⟨S32x3x262144, .f32⟩) main_call1_v14) (TRef.of (T := ⟨S32x3x262144, .f32⟩) main_v5) select,
    reshape main_v5 main_v6 rfl shapeCasts_S32x3x262144_S32x3x512x512 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., unary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- The operations up to the flattened index array (the rounding is a called function's one operation). -/
abbrev opsA : List (HloOp τ sig (Elt F)) :=
  [ nullary main_cst (constant S_ .f32 0x437F0000#32),
    unary main_cst main_v0 (broadcastInDim S32x3x512x512 ![] bcast_S_S32x3x512x512 : (⟨S_, .f32⟩ : BufTy).Contents (Elt F) → (⟨S32x3x512x512, .f32⟩ : BufTy).Contents (Elt F)),
    binary main_v0 main_arg0 main_v1 (mulf : (⟨S32x3x512x512, .f32⟩ : BufTy).Contents (Elt F) → (⟨S32x3x512x512, .f32⟩ : BufTy).Contents (Elt F) → (⟨S32x3x512x512, .f32⟩ : BufTy).Contents (Elt F)),
    TRef.unary (TRef.of (T := ⟨S32x3x512x512, .f32⟩) main_v1) (TRef.of (T := ⟨S32x3x512x512, .f32⟩) main_v2) Host.roundeven,
    unary main_v2 main_v3 (fptosi 32 : (⟨S32x3x512x512, .f32⟩ : BufTy).Contents (Elt F) → (⟨S32x3x512x512, .i32⟩ : BufTy).Contents (Elt F)),
    reshape main_v3 main_v4 rfl shapeCasts_S32x3x512x512_S32x3x262144 ]

/-- The called lookup function's operations, the mask's reduction being `g`. -/
abbrev opsBg (g : (⟨S32x3x262144x1, .i1⟩ : BufTy).Contents (Elt F) → (⟨S_, .i1⟩ : BufTy).Contents (Elt F) → (⟨S32x3x262144, .i1⟩ : BufTy).Contents (Elt F)) : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32x3x262144, .i32⟩) main_call1_v0) (broadcastInDim S32x3x262144 ![] bcast_S_S32x3x262144),
    TRef.binary (TRef.of (T := ⟨S32x3x262144, .i32⟩) main_v4) (TRef.of (T := ⟨S32x3x262144, .i32⟩) main_call1_v0) (TRef.of (T := ⟨S32x3x262144, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S32x3x262144, .i32⟩) main_call1_v2) (broadcastInDim S32x3x262144 ![] bcast_S_S32x3x262144),
    TRef.binary (TRef.of (T := ⟨S32x3x262144, .i32⟩) main_v4) (TRef.of (T := ⟨S32x3x262144, .i32⟩) main_call1_v2) (TRef.of (T := ⟨S32x3x262144, .i32⟩) main_call1_v3) addi,
    TRef.ternary (TRef.of (T := ⟨S32x3x262144, .i1⟩) main_call1_v1) (TRef.of (T := ⟨S32x3x262144, .i32⟩) main_call1_v3) (TRef.of (T := ⟨S32x3x262144, .i32⟩) main_v4) (TRef.of (T := ⟨S32x3x262144, .i32⟩) main_call1_v4) select,
    TRef.reshape (TRef.of (T := ⟨S32x3x262144, .i32⟩) main_call1_v4) (TRef.of (T := ⟨S32x3x262144x1, .i32⟩) main_call1_v5) rfl shapeCasts_S32x3x262144_S32x3x262144x1,
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S32x3x262144x1, .i32⟩) main_call1_v6) (broadcastInDim S32x3x262144x1 ![] bcast_S_S32x3x262144x1),
    TRef.binary (TRef.of (T := ⟨S32x3x262144x1, .i32⟩) main_call1_v5) (TRef.of (T := ⟨S32x3x262144x1, .i32⟩) main_call1_v6) (TRef.of (T := ⟨S32x3x262144x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S32x3x262144x1, .i32⟩) main_call1_v9) (broadcastInDim S32x3x262144x1 ![0, 1, 2, 3] bcast_S1x1x1x1_S32x3x262144x1_0_1_2_3),
    TRef.binary (TRef.of (T := ⟨S32x3x262144x1, .i32⟩) main_call1_v5) (TRef.of (T := ⟨S32x3x262144x1, .i32⟩) main_call1_v9) (TRef.of (T := ⟨S32x3x262144x1, .i1⟩) main_call1_v10) (cmpi .sle),
    TRef.binary (TRef.of (T := ⟨S32x3x262144x1, .i1⟩) main_call1_v7) (TRef.of (T := ⟨S32x3x262144x1, .i1⟩) main_call1_v10) (TRef.of (T := ⟨S32x3x262144x1, .i1⟩) main_call1_v11) andi,
    TRef.nullary (TRef.of (T := ⟨S_, .i1⟩) main_call1_c_3) (constantI S_ 1 1#1),
    TRef.binary (TRef.of (T := ⟨S32x3x262144x1, .i1⟩) main_call1_v11) (TRef.of (T := ⟨S_, .i1⟩) main_call1_c_3) (TRef.of (T := ⟨S32x3x262144, .i1⟩) main_call1_v12) g,
    TRef.binary (TRef.of (T := ⟨S32x3x256, .f32⟩) main_arg1) (TRef.of (T := ⟨S32x3x262144x1, .i32⟩) main_call1_v5) (TRef.of (T := ⟨S32x3x262144, .f32⟩) main_call1_v13) (fun x i => Host.gather gather_S32x3x256_S32x3x262144x1_S32x3x262144_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S32x3x262144, .f32⟩) main_call1_v14) (broadcastInDim S32x3x262144 ![] bcast_S_S32x3x262144),
    TRef.ternary (TRef.of (T := ⟨S32x3x262144, .i1⟩) main_call1_v12) (TRef.of (T := ⟨S32x3x262144, .f32⟩) main_call1_v13) (TRef.of (T := ⟨S32x3x262144, .f32⟩) main_call1_v14) (TRef.of (T := ⟨S32x3x262144, .f32⟩) main_v5) select ]

/-- The last operation: the rows laid back out as planes. -/
abbrev opsC : List (HloOp τ sig (Elt F)) :=
  [ reshape main_v5 main_v6 rfl shapeCasts_S32x3x262144_S32x3x512x512 ]

/-- The program is the three pieces in a row, the lookup's reduction being the program's. -/
theorem ops_split : (ops : List (HloOp τ sig (Elt F))) = opsA ++ (opsBg (allAxis3 (F := F)) ++ opsC) := rfl

/-- Buffer contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After the first piece the index buffer holds the flattened index array of the image … -/
theorem after_opsA_v4 (V : Valuation τ sig (Elt F)) :
    after (opsA (F := F)) V (Proc.devRef .tc main_v4) = idxFlat (F := F) (V (Proc.devRef .tc main_arg0)) := by
  after_results <;> rfl

/-- … and the table is as it was. -/
theorem after_opsA_arg1 (V : Valuation τ sig (Elt F)) :
    after (opsA (F := F)) V (Proc.devRef .tc main_arg1) = V (Proc.devRef .tc main_arg1) := by
  after_results <;> rfl

/-- After the lookup's operations, whatever the mask's reduction, the lookup's result buffer holds the lookup of the
    table at the index buffer. -/
theorem after_opsBg (g : (⟨S32x3x262144x1, .i1⟩ : BufTy).Contents (Elt F) → (⟨S_, .i1⟩ : BufTy).Contents (Elt F) → (⟨S32x3x262144, .i1⟩ : BufTy).Contents (Elt F)) (W : Valuation τ sig (Elt F)) :
    after (opsBg (F := F) g) W (Proc.devRef .tc main_v5)
      = takeAlongG (F := F) g (W (Proc.devRef .tc main_arg1)) (W (Proc.devRef .tc main_v4)) := by
  after_results <;> rfl

/-- After the last operation the result buffer holds the lookup's result as planes. -/
theorem after_opsC (W : Valuation τ sig (Elt F)) :
    after (opsC (F := F)) W (Proc.devRef .tc main_v6)
      = shapeCast S32x3x512x512 (W (Proc.devRef .tc main_v5) : (⟨S32x3x262144, .f32⟩ : BufTy).Contents (Elt F)) shapeCasts_S32x3x262144_S32x3x512x512 := by
  after_results <;> rfl

/-- After the whole program the result buffer holds the result function of the two arguments. -/
theorem after_ops_v6 (V : Valuation τ sig (Elt F)) :
    after (ops (F := F)) V (Proc.devRef .tc main_v6)
      = refOutG (F := F) (allAxis3 (F := F)) (V (Proc.devRef .tc main_arg0)) (V (Proc.devRef .tc main_arg1)) := by
  rw [ops_split, after_append, after_append, after_opsC, after_opsBg, after_opsA_v4, after_opsA_arg1]
  rfl

set_option maxHeartbeats 1000000 in
/-- On every device, from any memory with zero counters: every weakly fair execution of the program terminates with the
    result buffer at the result function of the arguments' launch contents and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread nD τ).loc main_v6)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v6).trans (after_ops_v6 (F := Ideal) _),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.RefValue

end
-- ==== Proof.RefValue.lean ====
/-
  The reference's result read at an index. When every image entry's position word lies in [0, 255]:
  no index is counted from the end, so the lookup's start indices are the position words themselves; the mask (an
  "and" over a unit axis of "start index in [0, 255]") is 1 everywhere, so the lookup is the gather; and the gather at
  (b, ch, p) reads row (b, ch) of the table at the start index, read signed and held to [0, 255] — which for a word
  already in [0, 255] is the word. Laid back out as planes, the entry (b, ch, h, w) is at p = 512·h + w.
-/
import proofs.«160090_j1554778161489_2_alg».proof.Proof.RefStages
import proofs.«160090_j1554778161489_2_alg».proof.Proof.Lookup
import Idealize.ShloMosaic.Lib.Pipeline.Value
import Idealize.ShloMosaic.Lib.ValueIdx
import Idealize.ShloMosaic.PureOps.Reduce

noncomputable section

namespace Cert.ReferenceIdeal.RefValue

open Cert.ReferenceIdeal Cert.ReferenceIdeal.Gen Idealize.ShloMosaic

variable {F : FTy → Type} [FloatOps F]

open Idealize.ShloMosaic.ValueIdx Cert.Lookup

/-! ## Words in the table -/

/-- A word at least 0 (signed) does not test below 0. -/
theorem slt_zero (w : BitVec 32) (hlo : (0#32 : BitVec 32).sle w = true) : IntOp.cmpi .slt w 0#32 = 0#1 := by
  have h0 : (0#32 : BitVec 32).toInt = 0 := by decide
  simp only [BitVec.sle, decide_eq_true_eq, h0] at hlo
  have e : w.slt 0#32 = false := by
    simp only [BitVec.slt, decide_eq_false_iff_not, h0]; omega
  show BitVec.ofBool (w.slt 0#32) = 0#1
  rw [e]; rfl

/-- … and tests at least 0. -/
theorem sge_zero (w : BitVec 32) (hlo : (0#32 : BitVec 32).sle w = true) : IntOp.cmpi .sge w 0#32 = 1#1 := by
  show BitVec.ofBool ((0#32 : BitVec 32).sle w) = 1#1
  rw [hlo]; rfl

/-- A word at most 255 (signed) tests so. -/
theorem sle_255 (w : BitVec 32) (hhi : w.sle 255#32 = true) : IntOp.cmpi .sle w 255#32 = 1#1 := by
  show BitVec.ofBool (w.sle 255#32) = 1#1
  rw [hhi]; rfl

/-- A word in [0, 255], read signed and held to [0, 255], is the table position it names. -/
theorem min_toNat (w : BitVec 32) (hlo : (0#32 : BitVec 32).sle w = true) (hhi : w.sle 255#32 = true) :
    min w.toInt.toNat (256 - 1) = (pos w).val := by
  show min w.toInt.toNat (256 - 1) = (clamp w).toNat
  rw [clamp_eq_self w hlo hhi]
  have h255 : (255#32 : BitVec 32).toInt = 255 := by decide
  have h0 : (0#32 : BitVec 32).toInt = 0 := by decide
  simp only [BitVec.sle, decide_eq_true_eq, h255, h0] at hlo hhi
  have hw := BitVec.toInt_eq_toNat_cond w
  have hwlt := w.isLt
  split at hw <;> omega

/-- A left fold by "and" from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-! ## The stages at an index, for an index array whose words are all in [0, 255] -/

/-- The flattened index array holds position words of image entries. -/
theorem idxFlat_mem (x0 : FVec Ideal S32x3x512x512 .f32) (k : S32x3x262144.Idx) :
    idxFlat (F := Ideal) x0 k = word (x0 (Shape.reshapeEquiv shapeCasts_S32x3x512x512_S32x3x262144 k)) := rfl

/-- … the entry (b, ch, h, w)'s at (b, ch, 512·h + w). -/
theorem idxFlat_apply (x0 : FVec Ideal S32x3x512x512 .f32) (b : Fin 32) (ch : Fin 3) (h w : Fin 512)
    (p : Fin 262144) (hp : p.val = h.val * 512 + w.val) :
    idxFlat (F := Ideal) x0 (ix3 b ch p) = word (x0 (ix4 b ch h w)) := by
  rw [idxFlat_mem]
  refine congrArg (fun i => word (x0 i)) (Shape.reshapeEquiv_eq_of_rowMajor _ ?_)
  rw [Shape.rowMajor_val_four, Shape.rowMajor_val_three]
  show ((b.val * 3 + ch.val) * 512 + h.val) * 512 + w.val = (b.val * 3 + ch.val) * 262144 + p.val
  omega

/-- With every index at least 0 nothing is counted from the end: the start indices are the indices. -/
theorem wrapIdx_mem (idx : IVec S32x3x262144 32) (hidx : ∀ k, (0#32 : BitVec 32).sle (idx k) = true)
    (i : S32x3x262144x1.Idx) :
    wrapIdx (F := Ideal) idx i = idx (Shape.reshapeEquiv shapeCasts_S32x3x262144_S32x3x262144x1 i) := by
  show Scalar.select (IntOp.cmpi .slt (idx _) 0#32) (IntOp.addi (idx _) 256#32) (idx _) = idx _
  rw [slt_zero _ (hidx _), select_zero]

/-- … the one at (b, ch, p, 0) the index at (b, ch, p). -/
theorem wrapIdx_apply (idx : IVec S32x3x262144 32) (hidx : ∀ k, (0#32 : BitVec 32).sle (idx k) = true)
    (b : Fin 32) (ch : Fin 3) (p : Fin 262144) (z : Fin 1) :
    wrapIdx (F := Ideal) idx (ix4 b ch p z) = idx (ix3 b ch p) := by
  rw [wrapIdx_mem idx hidx]
  refine congrArg idx (Shape.reshapeEquiv_eq_of_rowMajor _ ?_)
  rw [Shape.rowMajor_val_four, Shape.rowMajor_val_three]
  show (b.val * 3 + ch.val) * 262144 + p.val = ((b.val * 3 + ch.val) * 262144 + p.val) * 1 + z.val
  have := z.isLt
  omega

/-- With every start index in [0, 255] the mask is 1 everywhere. -/
theorem inBoundsG_one (si : IVec S32x3x262144x1 32)
    (hsi : ∀ i, (0#32 : BitVec 32).sle (si i) = true ∧ (si i).sle 255#32 = true) (j : S32x3x262144.Idx) :
    inBoundsG (F := Ideal) (allAxis3 (F := Ideal)) si j = 1#1 := by
  unfold inBoundsG allAxis3
  rw [Host.reduce_eq_foldl]
  exact foldl_andi_one _ (fun i => by
    show IntOp.andi (IntOp.cmpi .sge (si i) 0#32) (IntOp.cmpi .sle (si i) 255#32) = 1#1
    rw [sge_zero _ (hsi i).1, sle_255 _ (hsi i).2]; decide) _

/-- The lookup's dimension numbers: the two leading axes batched, the last one indexed and collapsed. -/
abbrev gd : GatherDims S32x3x256 S32x3x262144x1 S32x3x262144 :=
  gather_S32x3x256_S32x3x262144x1_S32x3x262144_n_2_01_01_2_3_111

/-- THE GATHER READ AT (b, ch, p): row (b, ch) of the table at the start index at (b, ch, p, 0), read signed and held
    to [0, 255]. -/
theorem gather_apply (x1 : FVec Ideal S32x3x256 .f32) (si : IVec S32x3x262144x1 32) (b : Fin 32) (ch : Fin 3)
    (p : Fin 262144) :
    Host.gather gd x1 si (ix3 b ch p)
      = x1 (ix3 b ch ⟨min (si (ix4 b ch p (0 : Fin 1))).toInt.toNat (256 - 1), by omega⟩) := by
  unfold Host.gather
  congr 1
  funext a
  refine Fin.ext ?_
  match a with
  | ⟨0, _⟩ =>
    show gd.start (ix3 b ch p) si (0 : Fin 3) + gd.batchCoord (ix3 b ch p) (0 : Fin 3) + gd.offCoord (ix3 b ch p) (0 : Fin 3) = b.val
    rw [GatherDims.start_batching _ _ _ _ (show (0 : Fin 3) ∈ gd.operandBatchingDims from by decide),
      GatherDims.offCoord_eq_zero _ _ _ (fun h => ((GatherDims.mem_sKept _ _).mp h).2 (by decide)),
      Nat.zero_add, Nat.add_zero]
    rfl
  | ⟨1, _⟩ =>
    show gd.start (ix3 b ch p) si (1 : Fin 3) + gd.batchCoord (ix3 b ch p) (1 : Fin 3) + gd.offCoord (ix3 b ch p) (1 : Fin 3) = ch.val
    rw [GatherDims.start_batching _ _ _ _ (show (1 : Fin 3) ∈ gd.operandBatchingDims from by decide),
      GatherDims.offCoord_eq_zero _ _ _ (fun h => ((GatherDims.mem_sKept _ _).mp h).2 (by decide)),
      Nat.zero_add, Nat.add_zero]
    rfl
  | ⟨2, _⟩ =>
    show gd.start (ix3 b ch p) si (2 : Fin 3) + gd.batchCoord (ix3 b ch p) (2 : Fin 3) + gd.offCoord (ix3 b ch p) (2 : Fin 3)
      = min (si (ix4 b ch p (0 : Fin 1))).toInt.toNat (256 - 1)
    rw [GatherDims.batchCoord_eq_zero _ _ _ (show (2 : Fin 3) ∉ gd.operandBatchingDims from by decide),
      GatherDims.offCoord_eq_zero _ _ _ (fun h => ((GatherDims.mem_sKept _ _).mp h).1 (by decide))]
    simp only [Nat.add_zero]
    unfold GatherDims.start
    rw [dif_pos (show (2 : Fin 3) ∈ gd.startIndexMap from by decide)]
    have hsi : gd.siIdx (ix3 b ch p) ⟨List.idxOf (2 : Fin 3) gd.startIndexMap,
        List.idxOf_lt_length_iff.2 (show (2 : Fin 3) ∈ gd.startIndexMap from by decide)⟩ = ix4 b ch p (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ## The result at an index -/

/-- THE REFERENCE AT (b, ch, h, w), when every image entry's position word is in [0, 255]: row (b, ch) of the table
    at the position the entry selects. -/
theorem refOut_apply (x0 : FVec Ideal S32x3x512x512 .f32) (x1 : FVec Ideal S32x3x256 .f32)
    (hb : ∀ i : S32x3x512x512.Idx, (0#32 : BitVec 32).sle (word (x0 i)) = true ∧ (word (x0 i)).sle 255#32 = true)
    (b : Fin 32) (ch : Fin 3) (h w : Fin 512) :
    refOut x0 x1 (ix4 b ch h w) = x1 (ix3 b ch (pos (word (x0 (ix4 b ch h w))))) := by
  have hidx : ∀ k, (0#32 : BitVec 32).sle (idxFlat (F := Ideal) x0 k) = true ∧ (idxFlat (F := Ideal) x0 k).sle 255#32 = true :=
    fun k => by rw [idxFlat_mem]; exact hb _
  have hsi : ∀ i, (0#32 : BitVec 32).sle (wrapIdx (F := Ideal) (idxFlat (F := Ideal) x0) i) = true
      ∧ (wrapIdx (F := Ideal) (idxFlat (F := Ideal) x0) i).sle 255#32 = true :=
    fun i => by rw [wrapIdx_mem _ (fun k => (hidx k).1)]; exact hidx _
  have hp : h.val * 512 + w.val < 262144 := by have := h.isLt; have := w.isLt; omega
  have e1 : refOut x0 x1 (ix4 b ch h w)
      = takeAlongG (F := Ideal) (allAxis3 (F := Ideal)) x1 (idxFlat (F := Ideal) x0) (ix3 b ch ⟨h.val * 512 + w.val, hp⟩) := by
    refine shapeCast_apply _ shapeCasts_S32x3x262144_S32x3x512x512 _ _ ?_
    rw [Shape.rowMajor_val_four, Shape.rowMajor_val_three]
    show (b.val * 3 + ch.val) * 262144 + (h.val * 512 + w.val) = ((b.val * 3 + ch.val) * 512 + h.val) * 512 + w.val
    omega
  rw [e1]
  unfold takeAlongG
  rw [select_apply, inBoundsG_one _ hsi, select_one]
  refine (gather_apply x1 _ b ch _).trans ?_
  refine congrArg (fun q => x1 (ix3 b ch q)) (Fin.ext ?_)
  show min (wrapIdx (F := Ideal) (idxFlat (F := Ideal) x0) (ix4 b ch ⟨h.val * 512 + w.val, hp⟩ (0 : Fin 1))).toInt.toNat (256 - 1)
    = (pos (word (x0 (ix4 b ch h w)))).val
  rw [wrapIdx_apply _ (fun k => (hidx k).1), idxFlat_apply x0 b ch h w ⟨h.val * 512 + w.val, hp⟩ rfl]
  exact min_toNat _ (hb _).1 (hb _).2

end Cert.ReferenceIdeal.RefValue

end
-- ==== Proof.PreBounds.lean ====
/-
  What the precondition says of the image: at every entry the selected table position, as a signed word, lies in
  [0, 255]. The precondition is a conjunction of "all" reductions; two of its conjuncts are the comparisons of the
  position word with 0 and with 255, and an "all" that is 1 had a 1 at every entry.
-/
import proofs.«160090_j1554778161489_2_alg».proof.Proof.Gen.Pre_finite_inputs
import proofs.«160090_j1554778161489_2_alg».proof.Proof.Lookup
import Idealize.ShloMosaic.Lib.ReduceAll
import Idealize.ShloMosaic.Lib.ValueIdx

noncomputable section

namespace Cert.PreBounds

open Idealize.ShloMosaic Idealize.ShloMosaic.ValueIdx Cert.Pre_finite_inputs Cert.Lookup

/-- The scalar shape has one index. -/
local instance : Subsingleton S_.Idx := ⟨fun _ _ => funext fun d => d.elim0⟩

/-- A comparison word that is 1 came from a comparison that holds. -/
private theorem of_ofBool {b : Bool} (h : BitVec.ofBool b = 1#1) : b = true := by
  cases b
  · exact absurd h (by decide)
  · rfl

/-- Under the precondition every entry's position word is in [0, 255] (signed). -/
theorem bounds_of_pre (x0 : FVec Ideal S32x3x512x512 .f32) (x1 : FVec Ideal S32x3x256 .f32)
    (h : Cert.Pre_finite_inputs.fn (F := Ideal) x0 x1 = fun _ => 1#1) :
    ∀ i : S32x3x512x512.Idx, (0#32 : BitVec 32).sle (word (x0 i)) = true ∧ (word (x0 i)).sle 255#32 = true := by
  have h0 := congrFun h ix0
  dsimp only [fn, fn_part1] at h0
  obtain ⟨h16, h19⟩ := IntOp.andi_eq_one.1 h0
  obtain ⟨-, h15⟩ := IntOp.andi_eq_one.1 h16
  intro i
  have hge := Host.reduce_andi_all _ _ _ _ _ h15 i
  have hle := Host.reduce_andi_all _ _ _ _ _ h19 i
  exact ⟨of_ofBool hge, of_ofBool hle⟩

end Cert.PreBounds

end
-- ==== Proof.lean ====
/-
  The proof of `Cert.Claim` for the intensity-transform kernel.

  Both programs take images f32[32,3,512,512] and tables f32[32,3,256] and return, at `(b, c, h, w)`, an entry of table
  `(b, c)`: the one at position `idx = int32(round(255 · images[b,c,h,w]))` (round half to even). The reference gathers
  it (a negative position counted from the end, a position outside the table answered by a fill value); the kernel
  holds the position inside `[0, 255]`, builds the indicator of that position along the 256 entries and sums
  indicator × entry. The precondition says every input is finite and every position lies in `[0, 255]`, the table's
  own range. Under it the reference's wrap and fill never act and the kernel's hold changes nothing, so both results
  are `tables[b, c, idx]`: the kernel's because exactly one indicator is 1 and `0 · t = 0` on the extended reals
  (`Lookup.onehot_sum`), the reference's by reading its gather at an index. Finiteness is not used.

  The three frames: the kernel's two are the generated frame certificates; the reference's is its run with the result
  dropped. The ideal pass rewrote nothing, so `preserves` is `True`.
-/
import proofs.«160090_j1554778161489_2_alg».proof.Defs
import proofs.«160090_j1554778161489_2_alg».proof.Proof.Gen.Kernel
import proofs.«160090_j1554778161489_2_alg».proof.Proof.Gen.Kernel.Frame
import proofs.«160090_j1554778161489_2_alg».proof.Proof.Gen.KernelIdeal
import proofs.«160090_j1554778161489_2_alg».proof.Proof.Gen.KernelIdeal.Frame
import proofs.«160090_j1554778161489_2_alg».proof.Proof.Gen.ReferenceIdeal
import proofs.«160090_j1554778161489_2_alg».proof.Proof.Gen.Pre_finite_inputs
import proofs.«160090_j1554778161489_2_alg».proof.Proof.KernelValue
import proofs.«160090_j1554778161489_2_alg».proof.Proof.RefRun
import proofs.«160090_j1554778161489_2_alg».proof.Proof.RefValue
import proofs.«160090_j1554778161489_2_alg».proof.Proof.PreBounds
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

/-- From memories agreeing on the arguments both programs end with the same result: element `(b, c, h, w)` of either
    is the entry of table `(b, c)` at the position image element `(b, c, h, w)` selects. -/
theorem algebraic : Cert.algebraic_KernelIdeal_ReferenceIdeal := by
  intro m ρ m' ρ' hpre hagree
  refine ⟨fun c => Cert.KernelIdeal.KValue.kernOut (m ((c.tc : Thread _ _).loc Cert.KernelIdeal.main_arg0)) (m ((c.tc : Thread _ _).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  funext i
  obtain ⟨b, ch, h, w, rfl⟩ : ∃ (b : Fin 32) (ch : Fin 3) (h w : Fin 512), i = ix4 b ch h w := ⟨i 0, i 1, i 2, i 3, eq_ix4 i⟩
  exact (Cert.ReferenceIdeal.RefValue.refOut_apply _ _ (Cert.PreBounds.bounds_of_pre _ _ (hpre c)) b ch h w).trans
    (Cert.KernelIdeal.KValue.kernOut_apply _ _ b ch h w).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
